-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x32x32 : S_.BroadcastsInDim S8192x32x32 (![] : Fin 0 → Fin S8192x32x32.rank)
  reducesTo_S8192x32x32_S_d0_1_2 : S8192x32x32.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S8192x32x32 .f32) (main_arg2 : FVec F S4096 .f32) (main_arg3 : IVec S8192 32) (main_arg4 : IVec S8192 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x32x32 .f32 := Host.absf main_arg1
  let main_cst_0 : FVec F S_ .f32 := constant S_ .f32 0x7F800000#32
  let main_v5 : FVec F S8192x32x32 .f32 := broadcastInDim S8192x32x32 ![] bcast_S_S8192x32x32 main_cst_0
  let main_v6 : IVec S8192x32x32 1 := cmpf .olt main_v4 main_v5
  let main_c_1 : IVec S_ 1 := constantI S_ 1 1#1
  let main_v7 : IVec S_ 1 := (fun x v => Host.reduce IntOp.andi x v reducesTo_S8192x32x32_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x32x128x32 : Shape := ⟨4, ![128, 32, 128, 32]⟩
abbrev S8192x1 : Shape := ⟨2, ![8192, 1]⟩
abbrev S8192x2 : Shape := ⟨2, ![8192, 2]⟩
abbrev S4096x4096 : Shape := ⟨2, ![4096, 4096]⟩
abbrev S1x4096 : Shape := ⟨2, ![1, 4096]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 31
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S8192x32x32, .bf16⟩
  | .hbm, ⟨6, _⟩ => ⟨S8192x32x32, .bf16⟩
  | .hbm, ⟨7, _⟩ => ⟨S_, .bf16⟩
  | .hbm, ⟨8, _⟩ => ⟨S128x32x128x32, .bf16⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1, .i32⟩
  | .hbm, ⟨25, _⟩ => ⟨S8192x2, .i32⟩
  | .hbm, ⟨26, _⟩ => ⟨S128x32x128x32, .bf16⟩
  | .hbm, ⟨27, _⟩ => ⟨S4096x4096, .bf16⟩
  | .hbm, ⟨28, _⟩ => ⟨S8192x4096, .bf16⟩
  | .hbm, ⟨29, _⟩ => ⟨S1x4096, .f32⟩
  | .hbm, ⟨30, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  transposes_S8192x32x32_S8192x32x32_0_2_1 : S8192x32x32.Transposes [0, 2, 1] S8192x32x32
  bcast_S_S128x32x128x32 : S_.BroadcastsInDim S128x32x128x32 (![] : Fin 0 → Fin S128x32x128x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  shapeCasts_S128x32x128x32_S4096x4096 : S128x32x128x32.ShapeCasts S4096x4096
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  scatter_S128x32x128x32_S8192x2_S8192x32x32_12_02_02_1_wf : ScatterDims.WF S128x32x128x32 S8192x2 S8192x32x32 [1, 2] [0, 2] [0, 2] 1
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S128x32x128x32_S8192x2_S8192x32x32_12_02_02_1 : ScatterDims S128x32x128x32 S8192x2 S8192x32x32 where
  updateWindowDims := [1, 2]
  insertedWindowDims := [0, 2]
  scatterDimsToOperandDims := [0, 2]
  indexVectorDim := 1
  wf := scatter_S128x32x128x32_S8192x2_S8192x32x32_12_02_02_1_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_v18) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S8192x32x32 : Shape := ⟨3, ![8192, 32, 32]⟩
abbrev S4096 : Shape := ⟨1, ![4096]⟩
abbrev S8192 : Shape := ⟨1, ![8192]⟩
abbrev S_ : Shape := ⟨0, ![]⟩
abbrev S128x128x32x32 : Shape := ⟨4, ![128, 128, 32, 32]⟩
abbrev S8192x1 : Shape := ⟨2, ![8192, 1]⟩
abbrev S8192x2 : Shape := ⟨2, ![8192, 2]⟩
abbrev S128x32x128x32 : Shape := ⟨4, ![128, 32, 128, 32]⟩
abbrev S4096x4096 : Shape := ⟨2, ![4096, 4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x32x32, .f32⟩
  | .hbm, ⟨2, _⟩ => ⟨S4096, .f32⟩
  | .hbm, ⟨3, _⟩ => ⟨S8192, .i32⟩
  | .hbm, ⟨4, _⟩ => ⟨S8192, .i32⟩
  | .hbm, ⟨5, _⟩ => ⟨S_, .f32⟩
  | .hbm, ⟨6, _⟩ => ⟨S128x128x32x32, .f32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192x1, .i32⟩
  | .hbm, ⟨23, _⟩ => ⟨S8192x2, .i32⟩
  | .hbm, ⟨24, _⟩ => ⟨S128x128x32x32, .f32⟩
  | .hbm, ⟨25, _⟩ => ⟨S128x32x128x32, .f32⟩
  | .hbm, ⟨26, _⟩ => ⟨S4096x4096, .f32⟩
  | .hbm, ⟨27, _⟩ => ⟨S4096x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S128x128x32x32 : S_.BroadcastsInDim S128x128x32x32 (![] : Fin 0 → Fin S128x128x32x32.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  transposes_S128x128x32x32_S128x32x128x32_0_2_1_3 : S128x128x32x32.Transposes [0, 2, 1, 3] S128x32x128x32
  shapeCasts_S128x32x128x32_S4096x4096 : S128x32x128x32.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S128x128x32x32_S8192x2_S8192x32x32_12_01_01_1_wf : ScatterDims.WF S128x128x32x32 S8192x2 S8192x32x32 [1, 2] [0, 1] [0, 1] 1
  dot_S8192x4096_S4096x4096_S8192x4096_1_0_0_1_n_n_wf : DotDims.WF S8192x4096 S4096x4096 S8192x4096 [1] [0] [0] [1] [] []

variable [Facts₀]

def scatter_S128x128x32x32_S8192x2_S8192x32x32_12_01_01_1 : ScatterDims S128x128x32x32 S8192x2 S8192x32x32 where
  updateWindowDims := [1, 2]
  insertedWindowDims := [0, 1]
  scatterDimsToOperandDims := [0, 1]
  indexVectorDim := 1
  wf := scatter_S128x128x32x32_S8192x2_S8192x32x32_12_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibScatterLast.lean ====
/-
  A `stablehlo.scatter` whose body returns the update (`x.at[idx].set(v)`) read at ONE cell of its result, when several
  updates may land on that cell.

  The host's scatter is a left fold over the update indices in row-major order, each step overwriting the cell its update
  lands on. Read at a fixed cell `i'`, the fold is "keep the last update that landed on `i'`, or the operand's entry if
  none did" (`scatter_set_apply`, `scatter_set_of_none`, `scatter_set_of_last`), and one of the two always holds
  (`scatter_set_cases`: among finitely many update indices landing on `i'` there is a row-major-last one).

  The consequence used to compare two programs (`scatter_set_eq_of_equiv`): two such scatters — of different operand
  shapes, index arrays, update arrays, dimension numbers — agree at a pair of cells `i₁`, `i₂` as soon as a bijection of their
  update indices (a) matches the updates landing on `i₁` with those landing on `i₂`, (b) keeps the row-major order of any
  two that land on `i₁`, (c) carries equal payloads, and the two operands agree at the two cells. Nothing is assumed about
  the index values: repeated positions and out-of-range positions are allowed.

  Also here: `resultIdx?_eq_some_iff`, an update index lands on `i'` exactly when start + window coordinate is `i'`'s
  coordinate on every operand axis (the in-range test of the definition is implied by `i'` being an index).
-/
import Idealize.ShloMosaic.PureOps.ShapeOps
import Mathlib.Data.List.Sort
import Mathlib.Data.Finset.Max

namespace Idealize.ShloMosaic.ScatterLast

open Idealize.ShloMosaic

variable {α : Type}

/-! ## A fold that overwrites its accumulator at the positions that hit -/

/-- If no position of the list hits, the accumulator is unchanged. -/
theorem foldl_overwrite_of_none {ι : Type} (hit : ι → Prop) [DecidablePred hit] (v : ι → α) :
    ∀ (l : List ι) (z : α), (∀ n ∈ l, ¬ hit n) → l.foldl (fun acc n => if hit n then v n else acc) z = z
  | [], _, _ => rfl
  | a :: l, z, h => by
      rw [List.foldl_cons, if_neg (h a List.mem_cons_self)]
      exact foldl_overwrite_of_none hit v l z (fun n hn => h n (List.mem_cons_of_mem _ hn))

/-- Over a strictly increasing list, if `n₀` is in the list, hits, and every hitting position is `≤ n₀`, the fold ends at
    `n₀`'s value: later positions do not hit, earlier ones are overwritten. -/
theorem foldl_overwrite_of_last {ι : Type} [LinearOrder ι] (hit : ι → Prop) [DecidablePred hit] (v : ι → α) (n₀ : ι)
    (h₀ : hit n₀) (hlast : ∀ n, hit n → n ≤ n₀) :
    ∀ (l : List ι) (z : α), l.Pairwise (· < ·) → n₀ ∈ l → l.foldl (fun acc n => if hit n then v n else acc) z = v n₀
  | [], _, _, hm => absurd hm List.not_mem_nil
  | a :: l, z, hp, hm => by
      rw [List.foldl_cons]
      have hp' := List.pairwise_cons.1 hp
      by_cases hml : n₀ ∈ l
      · exact foldl_overwrite_of_last hit v n₀ h₀ hlast l _ hp'.2 hml
      · have ha : n₀ = a := by
          rcases List.mem_cons.1 hm with h | h
          · exact h
          · exact absurd h hml
        subst ha
        rw [if_pos h₀]
        exact foldl_overwrite_of_none hit v l _ (fun n hn hh => absurd (hlast n hh) (not_le.2 (hp'.1 n hn)))

/-! ## Landing on a cell -/

variable {s si u : Shape} {w : Nat}

/-- Update index `j` lands on the cell `i'` exactly when, on every operand axis, the window's start plus `j`'s window
    coordinate is `i'`'s coordinate. -/
theorem resultIdx?_eq_some_iff (d : ScatterDims s si u) (j : u.Idx) (idx : IVec si w) (i' : s.Idx) :
    d.resultIdx? j idx = some i' ↔ ∀ a, d.start j idx a + (d.window j a : Int) = ((i' a).val : Int) := by
  unfold ScatterDims.resultIdx?
  by_cases h : ∀ a, 0 ≤ d.start j idx a + d.window j a ∧ d.start j idx a + d.window j a < s.size a
  · rw [dif_pos h]
    constructor
    · intro e a
      have e' := congrFun (Option.some.inj e) a
      have e'' : (d.start j idx a + (d.window j a : Int)).toNat = (i' a).val := congrArg Fin.val e'
      have := (h a).1
      omega
    · intro e
      refine congrArg some (funext fun a => Fin.ext ?_)
      show (d.start j idx a + (d.window j a : Int)).toNat = (i' a).val
      have := e a
      omega
  · rw [dif_neg h]
    constructor
    · intro e; cases e
    · intro e
      exfalso
      apply h
      intro a
      have := e a
      have := (i' a).isLt
      constructor <;> omega

/-! ## The scatter read at one cell -/

/-- The scatter that overwrites, read at the cell `i'`: the fold over the update indices, in row-major order, that replaces
    the accumulator by each update that lands on `i'`, from the operand's entry. -/
theorem scatter_set_apply (d : ScatterDims s si u) (x : s.Idx → α) (idx : IVec si w) (upd : u.Idx → α) (i' : s.Idx) :
    Host.scatter d (fun _ b => b) x idx upd i'
      = (List.finRange u.numel).foldl
          (fun acc n => if d.resultIdx? (u.rowMajor.symm n) idx = some i' then upd (u.rowMajor.symm n) else acc) (x i') := by
  unfold Host.scatter
  generalize List.finRange u.numel = l
  induction l generalizing x with
  | nil => rfl
  | cons a l ih =>
    rw [List.foldl_cons, List.foldl_cons, ih]
    congr 1
    cases hr : d.resultIdx? (u.rowMajor.symm a) idx with
    | none => simp
    | some i =>
      by_cases hi : i' = i
      · subst hi; simp
      · have hne : ¬ (some i = some i') := fun e => hi (Option.some.inj e).symm
        simp [hi, hne]

/-- No update lands on `i'`: the cell keeps the operand's entry. -/
theorem scatter_set_of_none (d : ScatterDims s si u) (x : s.Idx → α) (idx : IVec si w) (upd : u.Idx → α) (i' : s.Idx)
    (h : ∀ j, d.resultIdx? j idx ≠ some i') : Host.scatter d (fun _ b => b) x idx upd i' = x i' := by
  rw [scatter_set_apply]
  exact foldl_overwrite_of_none _ _ _ _ (fun n _ => h _)

/-- `j₀` lands on `i'` and is row-major-last among the update indices that do: the cell holds `j₀`'s update. -/
theorem scatter_set_of_last (d : ScatterDims s si u) (x : s.Idx → α) (idx : IVec si w) (upd : u.Idx → α) (i' : s.Idx)
    (j₀ : u.Idx) (h₀ : d.resultIdx? j₀ idx = some i')
    (hlast : ∀ j, d.resultIdx? j idx = some i' → u.rowMajor j ≤ u.rowMajor j₀) :
    Host.scatter d (fun _ b => b) x idx upd i' = upd j₀ := by
  rw [scatter_set_apply]
  have key := foldl_overwrite_of_last (fun n => d.resultIdx? (u.rowMajor.symm n) idx = some i')
    (fun n => upd (u.rowMajor.symm n)) (u.rowMajor j₀)
    (by show d.resultIdx? (u.rowMajor.symm (u.rowMajor j₀)) idx = some i'; rw [Equiv.symm_apply_apply]; exact h₀)
    (fun n hn => by have := hlast _ hn; rwa [Equiv.apply_symm_apply] at this)
    (List.finRange u.numel) (x i') (List.sortedLT_finRange _).pairwise (List.mem_finRange _)
  rw [key, Equiv.symm_apply_apply]

/-- One of the two always holds: no update lands on `i'`, or some update index lands on it row-major-last. -/
theorem scatter_set_cases (d : ScatterDims s si u) (idx : IVec si w) (i' : s.Idx) :
    (∀ j, d.resultIdx? j idx ≠ some i')
      ∨ ∃ j₀, d.resultIdx? j₀ idx = some i' ∧ ∀ j, d.resultIdx? j idx = some i' → u.rowMajor j ≤ u.rowMajor j₀ := by
  classical
  by_cases h : ∃ j, d.resultIdx? j idx = some i'
  · right
    obtain ⟨j₁, hj₁⟩ := h
    have hne : (Finset.univ.filter fun j : u.Idx => d.resultIdx? j idx = some i').Nonempty :=
      ⟨j₁, Finset.mem_filter.2 ⟨Finset.mem_univ _, hj₁⟩⟩
    obtain ⟨j₀, hj₀, hmax⟩ := Finset.exists_max_image _ (fun j => u.rowMajor j) hne
    exact ⟨j₀, (Finset.mem_filter.1 hj₀).2, fun j hj => hmax j (Finset.mem_filter.2 ⟨Finset.mem_univ _, hj⟩)⟩
  · left
    exact fun j hj => h ⟨j, hj⟩

/-! ## Two scatters compared at a pair of cells -/

/-- Two overwriting scatters agree at the cells `i₁`, `i₂` when a bijection `e` of their update indices matches the updates
    landing on `i₁` with those landing on `i₂` (`hhit`), keeps the row-major order of two that land on `i₁` (`hord`), carries
    equal payloads (`hupd`), and the operands agree at the two cells (`hx`). -/
theorem scatter_set_eq_of_equiv {s₁ si₁ u₁ s₂ si₂ u₂ : Shape} {w₁ w₂ : Nat}
    (d₁ : ScatterDims s₁ si₁ u₁) (d₂ : ScatterDims s₂ si₂ u₂)
    (x₁ : s₁.Idx → α) (x₂ : s₂.Idx → α) (idx₁ : IVec si₁ w₁) (idx₂ : IVec si₂ w₂)
    (upd₁ : u₁.Idx → α) (upd₂ : u₂.Idx → α) (i₁ : s₁.Idx) (i₂ : s₂.Idx) (e : u₁.Idx ≃ u₂.Idx)
    (hhit : ∀ j, d₁.resultIdx? j idx₁ = some i₁ ↔ d₂.resultIdx? (e j) idx₂ = some i₂)
    (hord : ∀ j j', d₁.resultIdx? j idx₁ = some i₁ → d₁.resultIdx? j' idx₁ = some i₁ →
      u₁.rowMajor j ≤ u₁.rowMajor j' → u₂.rowMajor (e j) ≤ u₂.rowMajor (e j'))
    (hupd : ∀ j, d₁.resultIdx? j idx₁ = some i₁ → upd₁ j = upd₂ (e j))
    (hx : x₁ i₁ = x₂ i₂) :
    Host.scatter d₁ (fun _ b => b) x₁ idx₁ upd₁ i₁ = Host.scatter d₂ (fun _ b => b) x₂ idx₂ upd₂ i₂ := by
  rcases scatter_set_cases d₁ idx₁ i₁ with hnone | ⟨j₀, hj₀, hlast⟩
  · rw [scatter_set_of_none d₁ x₁ idx₁ upd₁ i₁ hnone,
      scatter_set_of_none d₂ x₂ idx₂ upd₂ i₂ (fun j₂ hj₂ => hnone (e.symm j₂) ((hhit _).2 (by rwa [Equiv.apply_symm_apply]))), hx]
  · rw [scatter_set_of_last d₁ x₁ idx₁ upd₁ i₁ j₀ hj₀ hlast,
      scatter_set_of_last d₂ x₂ idx₂ upd₂ i₂ (e j₀) ((hhit _).1 hj₀) (fun j₂ hj₂ => by
        have h₁ : d₁.resultIdx? (e.symm j₂) idx₁ = some i₁ := (hhit _).2 (by rwa [Equiv.apply_symm_apply])
        have := hord _ _ h₁ hj₀ (hlast _ h₁)
        rwa [Equiv.apply_symm_apply] at this),
      hupd _ hj₀]

end Idealize.ShloMosaic.ScatterLast
-- ==== Proof.Spec.lean ====
/-
  The function both programs compute: an affine map applied to every row of `x`.

  For `x : [8192, 4096]`, a weight matrix `W : [4096, 4096]` laid out input-feature-major (`W (k, c)` multiplies input
  feature `k` into output feature `c`) and a bias `b : [4096]`,

      affine x W b (r, c) = (∑ k, x (r, k) · W (k, c)) + b c

  on the extended reals. No law of the extended reals beyond reading both programs at an index is needed to reach this
  form from either side, so nothing here asks for finite entries.
-/
import Idealize.ShloMosaic.PureOps.Ideal
import Idealize.ShloMosaic.Lib.ValueIdx

noncomputable section

open scoped BigOperators

namespace Cert.BlockLinear

open Idealize.ShloMosaic Idealize.ShloMosaic.ValueIdx

/-- Row `r` of `x` times the weight matrix, plus the bias: entry `(r, c)` is `(∑ k, x (r, k) · W (k, c)) + b c`. -/
def affine (x : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * W (ix2 k (i 1))) + b (ix1 (i 1))

theorem affine_apply (x : (⟨2, ![8192, 4096]⟩ : Shape).Idx → EReal) (W : (⟨2, ![4096, 4096]⟩ : Shape).Idx → EReal)
    (b : (⟨1, ![4096]⟩ : Shape).Idx → EReal) (r : Fin 8192) (c : Fin 4096) :
    affine x W b (ix2 r c) = (∑ k : Fin 4096, x (ix2 r k) * W (ix2 k c)) + b (ix1 c) := rfl

end Cert.BlockLinear

end
-- ==== Proof.TileCells.lean ====
/-
  The two programs' tile arrays, cell by cell.

  Both programs place the 8192 tiles `weight_data[n]` (32 × 32 each) into a zero array by one overwriting scatter whose
  positions come from the two index vectors. Write `R n`, `C n` for the block-row and block-column words of tile `n` as the
  scatter reads them (signed).
    * The reference's array is [128, 128, 32, 32]: update `(n, a, b)` lands on cell `(R n, C n, a, b)`.
    * The kernel's array is [128, 32, 128, 32] and it scatters the TRANSPOSED tiles, with the index columns in the other
      order: update `(n, a, b)`, which carries `weight_data[n, b, a]`, lands on cell `(C n, a, R n, b)`.
  An update is dropped by either exactly when `R n` or `C n` is outside 0…127.

  So the updates landing on the reference's cell `(br, bc, i, j)` and on the kernel's cell `(bc, j, br, i)` correspond under
  `(n, a, b) ↦ (n, b, a)`: they are the tiles `n` with `(R n, C n) = (br, bc)`, each once, carrying `weight_data[n, i, j]`. In
  both row-major orders such updates are ordered by `n` (their other two coordinates are fixed), so the same tile comes
  last, and the two cells end equal — with repeated positions and out-of-range positions allowed.
-/
import proofs.«175005_j86182813761997_2_alg».proof.Proof.Gen.ReferenceIdeal
import proofs.«175005_j86182813761997_2_alg».proof.Proof.Gen.KernelIdeal
import proofs.«175005_j86182813761997_2_alg».proof.Proof.LibScatterLast
import Idealize.ShloMosaic.Lib.ValueIdx

noncomputable section

namespace Cert.BlockLinear.Tiles

open Idealize.ShloMosaic Idealize.ShloMosaic.ValueIdx Idealize.ShloMosaic.ScatterLast

/-- The reference's scatter record: tiles into [128 block rows, 128 block columns, 32, 32]. -/
abbrev tilesR := Cert.ReferenceIdeal.scatter_S128x128x32x32_S8192x2_S8192x32x32_12_01_01_1
/-- The kernel's scatter record: transposed tiles into [128 block columns, 32, 128 block rows, 32]. -/
abbrev tilesK := Cert.KernelIdeal.scatter_S128x32x128x32_S8192x2_S8192x32x32_12_02_02_1

abbrev Upd : Shape := ⟨3, ![8192, 32, 32]⟩
abbrev Pos : Shape := ⟨2, ![8192, 2]⟩
abbrev ArrR : Shape := ⟨4, ![128, 128, 32, 32]⟩
abbrev ArrK : Shape := ⟨4, ![128, 32, 128, 32]⟩

theorem forall_fin4 {P : Fin 4 → Prop} : (∀ a, P a) ↔ P 0 ∧ P 1 ∧ P 2 ∧ P 3 :=
  ⟨fun h => ⟨h 0, h 1, h 2, h 3⟩, fun ⟨h0, h1, h2, h3⟩ a => by
    match a with
    | ⟨0, _⟩ => exact h0
    | ⟨1, _⟩ => exact h1
    | ⟨2, _⟩ => exact h2
    | ⟨3, _⟩ => exact h3⟩

/-! ## Where an update of the reference's scatter starts, and its window coordinates -/

theorem r_start0 (j : Upd.Idx) (idx : IVec Pos 32) : tilesR.start j idx 0 = (idx (ix2 (j 0) 0)).toInt := by
  unfold ScatterDims.start
  rw [dif_pos (show (0 : Fin 4) ∈ tilesR.scatterDimsToOperandDims by decide)]
  refine congrArg (fun k => (idx k).toInt) (funext fun b => ?_)
  match b with
  | ⟨0, _⟩ => exact Fin.ext rfl
  | ⟨1, _⟩ => exact Fin.ext rfl
theorem r_start1 (j : Upd.Idx) (idx : IVec Pos 32) : tilesR.start j idx 1 = (idx (ix2 (j 0) 1)).toInt := by
  unfold ScatterDims.start
  rw [dif_pos (show (1 : Fin 4) ∈ tilesR.scatterDimsToOperandDims by decide)]
  refine congrArg (fun k => (idx k).toInt) (funext fun b => ?_)
  match b with
  | ⟨0, _⟩ => exact Fin.ext rfl
  | ⟨1, _⟩ => exact Fin.ext rfl
theorem r_start2 (j : Upd.Idx) (idx : IVec Pos 32) : tilesR.start j idx 2 = 0 := by
  unfold ScatterDims.start
  rw [dif_neg (show ¬ (2 : Fin 4) ∈ tilesR.scatterDimsToOperandDims by decide)]
theorem r_start3 (j : Upd.Idx) (idx : IVec Pos 32) : tilesR.start j idx 3 = 0 := by
  unfold ScatterDims.start
  rw [dif_neg (show ¬ (3 : Fin 4) ∈ tilesR.scatterDimsToOperandDims by decide)]
theorem r_window0 (j : Upd.Idx) : tilesR.window j 0 = 0 := by
  unfold ScatterDims.window
  rw [dif_neg (show ¬ (0 : Fin 4) ∈ tilesR.sKept by decide)]
theorem r_window1 (j : Upd.Idx) : tilesR.window j 1 = 0 := by
  unfold ScatterDims.window
  rw [dif_neg (show ¬ (1 : Fin 4) ∈ tilesR.sKept by decide)]
theorem r_window2 (j : Upd.Idx) : tilesR.window j 2 = (j 1).val := by
  unfold ScatterDims.window
  rw [dif_pos (show (2 : Fin 4) ∈ tilesR.sKept by decide)]
  rfl
theorem r_window3 (j : Upd.Idx) : tilesR.window j 3 = (j 2).val := by
  unfold ScatterDims.window
  rw [dif_pos (show (3 : Fin 4) ∈ tilesR.sKept by decide)]
  rfl

/-- Update `j = (n, a, b)` of the reference's scatter lands on cell `i'` iff `i' = (R n, C n, a, b)`. -/
theorem lands_ref (idx : IVec Pos 32) (j : Upd.Idx) (i' : ArrR.Idx) :
    tilesR.resultIdx? j idx = some i'
      ↔ (idx (ix2 (j 0) 0)).toInt = ((i' 0).val : Int) ∧ (idx (ix2 (j 0) 1)).toInt = ((i' 1).val : Int)
        ∧ (j 1).val = (i' 2).val ∧ (j 2).val = (i' 3).val := by
  refine (resultIdx?_eq_some_iff tilesR j idx i').trans (forall_fin4.trans ?_)
  rw [r_start0, r_start1, r_start2, r_start3, r_window0, r_window1, r_window2, r_window3]
  constructor
  · rintro ⟨h0, h1, h2, h3⟩
    refine ⟨?_, ?_, ?_, ?_⟩ <;> omega
  · rintro ⟨h0, h1, h2, h3⟩
    refine ⟨?_, ?_, ?_, ?_⟩ <;> omega

/-! ## The same for the kernel's scatter -/

theorem k_start0 (j : Upd.Idx) (idx : IVec Pos 32) : tilesK.start j idx 0 = (idx (ix2 (j 0) 0)).toInt := by
  unfold ScatterDims.start
  rw [dif_pos (show (0 : Fin 4) ∈ tilesK.scatterDimsToOperandDims by decide)]
  refine congrArg (fun k => (idx k).toInt) (funext fun b => ?_)
  match b with
  | ⟨0, _⟩ => exact Fin.ext rfl
  | ⟨1, _⟩ => exact Fin.ext rfl
theorem k_start1 (j : Upd.Idx) (idx : IVec Pos 32) : tilesK.start j idx 1 = 0 := by
  unfold ScatterDims.start
  rw [dif_neg (show ¬ (1 : Fin 4) ∈ tilesK.scatterDimsToOperandDims by decide)]
theorem k_start2 (j : Upd.Idx) (idx : IVec Pos 32) : tilesK.start j idx 2 = (idx (ix2 (j 0) 1)).toInt := by
  unfold ScatterDims.start
  rw [dif_pos (show (2 : Fin 4) ∈ tilesK.scatterDimsToOperandDims by decide)]
  refine congrArg (fun k => (idx k).toInt) (funext fun b => ?_)
  match b with
  | ⟨0, _⟩ => exact Fin.ext rfl
  | ⟨1, _⟩ => exact Fin.ext rfl
theorem k_start3 (j : Upd.Idx) (idx : IVec Pos 32) : tilesK.start j idx 3 = 0 := by
  unfold ScatterDims.start
  rw [dif_neg (show ¬ (3 : Fin 4) ∈ tilesK.scatterDimsToOperandDims by decide)]
theorem k_window0 (j : Upd.Idx) : tilesK.window j 0 = 0 := by
  unfold ScatterDims.window
  rw [dif_neg (show ¬ (0 : Fin 4) ∈ tilesK.sKept by decide)]
theorem k_window1 (j : Upd.Idx) : tilesK.window j 1 = (j 1).val := by
  unfold ScatterDims.window
  rw [dif_pos (show (1 : Fin 4) ∈ tilesK.sKept by decide)]
  rfl
theorem k_window2 (j : Upd.Idx) : tilesK.window j 2 = 0 := by
  unfold ScatterDims.window
  rw [dif_neg (show ¬ (2 : Fin 4) ∈ tilesK.sKept by decide)]
theorem k_window3 (j : Upd.Idx) : tilesK.window j 3 = (j 2).val := by
  unfold ScatterDims.window
  rw [dif_pos (show (3 : Fin 4) ∈ tilesK.sKept by decide)]
  rfl

/-- Update `j = (n, a, b)` of the kernel's scatter lands on cell `i'` iff `i' = (P n, a, Q n, b)`, `P`, `Q` its two index
    columns (the block-column and block-row words). -/
theorem lands_ker (idx : IVec Pos 32) (j : Upd.Idx) (i' : ArrK.Idx) :
    tilesK.resultIdx? j idx = some i'
      ↔ (idx (ix2 (j 0) 0)).toInt = ((i' 0).val : Int) ∧ (j 1).val = (i' 1).val
        ∧ (idx (ix2 (j 0) 1)).toInt = ((i' 2).val : Int) ∧ (j 2).val = (i' 3).val := by
  refine (resultIdx?_eq_some_iff tilesK j idx i').trans (forall_fin4.trans ?_)
  rw [k_start0, k_start1, k_start2, k_start3, k_window0, k_window1, k_window2, k_window3]
  constructor
  · rintro ⟨h0, h1, h2, h3⟩
    refine ⟨?_, ?_, ?_, ?_⟩ <;> omega
  · rintro ⟨h0, h1, h2, h3⟩
    refine ⟨?_, ?_, ?_, ?_⟩ <;> omega

/-! ## The correspondence of updates, and the two cells -/

/-- `(n, a, b) ↦ (n, b, a)` on the update indices: the kernel scatters each tile transposed. -/
def swapTile : Upd.Idx ≃ Upd.Idx where
  toFun j := ix3 (j 0) (j 2) (j 1)
  invFun j := ix3 (j 0) (j 2) (j 1)
  left_inv j := (eq_ix3 j).symm
  right_inv j := (eq_ix3 j).symm

/-- The reference's cell `(br, bc, i, j)` and the kernel's cell `(bc, j, br, i)` end equal, whenever the two index arrays
    hold the same two columns in opposite order (`hrow`, `hcol`), the kernel's updates are the reference's with each tile
    transposed (`hupd`), and the two operands agree at the two cells (`hz`). -/
theorem tile_cell_eq {α : Type} (zR : ArrR.Idx → α) (zK : ArrK.Idx → α) (idxR idxK : IVec Pos 32) (updR updK : Upd.Idx → α)
    (hrow : ∀ n : Fin 8192, idxR (ix2 n 0) = idxK (ix2 n 1)) (hcol : ∀ n : Fin 8192, idxR (ix2 n 1) = idxK (ix2 n 0))
    (hupd : ∀ (n : Fin 8192) (a b : Fin 32), updR (ix3 n a b) = updK (ix3 n b a))
    (br bc : Fin 128) (i jj : Fin 32) (hz : zR (ix4 br bc i jj) = zK (ix4 bc jj br i)) :
    Host.scatter tilesR (fun _ b => b) zR idxR updR (ix4 br bc i jj)
      = Host.scatter tilesK (fun _ b => b) zK idxK updK (ix4 bc jj br i) := by
  refine scatter_set_eq_of_equiv tilesR tilesK zR zK idxR idxK updR updK _ _ swapTile ?_ ?_ ?_ hz
  · intro j
    rw [lands_ref, lands_ker]
    show ((idxR (ix2 (j 0) 0)).toInt = (br.val : Int) ∧ (idxR (ix2 (j 0) 1)).toInt = (bc.val : Int)
        ∧ (j 1).val = i.val ∧ (j 2).val = jj.val)
      ↔ ((idxK (ix2 (j 0) 0)).toInt = (bc.val : Int) ∧ (j 2).val = jj.val
        ∧ (idxK (ix2 (j 0) 1)).toInt = (br.val : Int) ∧ (j 1).val = i.val)
    have hr : idxR (ix2 (j 0) 0) = idxK (ix2 (j 0) 1) := hrow (j 0)
    have hc : idxR (ix2 (j 0) 1) = idxK (ix2 (j 0) 0) := hcol (j 0)
    constructor
    · rintro ⟨h0, h1, h2, h3⟩
      exact ⟨(congrArg BitVec.toInt hc).symm.trans h1, h3, (congrArg BitVec.toInt hr).symm.trans h0, h2⟩
    · rintro ⟨h0, h1, h2, h3⟩
      exact ⟨(congrArg BitVec.toInt hr).trans h2, (congrArg BitVec.toInt hc).trans h0, h3, h1⟩
  · intro j j' hj hj' hle
    rw [lands_ref] at hj hj'
    obtain ⟨-, -, hj1, hj2⟩ := hj
    obtain ⟨-, -, hj1', hj2'⟩ := hj'
    have e1 : (j 1).val = i.val := hj1
    have e2 : (j 2).val = jj.val := hj2
    have e1' : (j' 1).val = i.val := hj1'
    have e2' : (j' 2).val = jj.val := hj2'
    rw [Fin.le_def, Shape.rowMajor_val_three, Shape.rowMajor_val_three] at hle ⊢
    have hle' : ((j 0).val * 32 + (j 1).val) * 32 + (j 2).val ≤ ((j' 0).val * 32 + (j' 1).val) * 32 + (j' 2).val := hle
    show ((j 0).val * 32 + (j 2).val) * 32 + (j 1).val ≤ ((j' 0).val * 32 + (j' 2).val) * 32 + (j' 1).val
    have := i.isLt; have := jj.isLt
    omega
  · intro j _
    exact (congrArg updR (eq_ix3 j)).trans (hupd (j 0) (j 1) (j 2))

end Cert.BlockLinear.Tiles

end
-- ==== Proof.WeightEq.lean ====
/-
  The two programs feed the same [4096, 4096] weight matrix to their contractions.

  The reference builds `W` of shape [out, in] from its tile array `T_R` [128, 128, 32, 32] (transpose to [128, 32, 128, 32],
  reshape to [4096, 4096]) and contracts `x` against its transpose, so the matrix it multiplies by has entry

      (k, c) ↦ W (c, k) = T_R (c / 32, k / 32, c % 32, k % 32).

  The kernel reshapes its tile array `T_K` [128, 32, 128, 32] directly to [in, out]: entry `(k, c)` is the cell with
  row-major position `k · 4096 + c`, that is `T_K (k / 32, k % 32, c / 32, c % 32)`.

  With `br = c / 32`, `bc = k / 32`, `i = c % 32`, `j = k % 32` these are the reference's cell `(br, bc, i, j)` and the
  kernel's cell `(bc, j, br, i)`, which hold the same value (the module on the tile cells): the zero the arrays start from
  is the same extended real in both formats, the index arrays hold the same two wrapped vectors in opposite column order,
  and the kernel's updates are the tiles transposed (its change of format is the identity at the ideal values).
-/
import proofs.«175005_j86182813761997_2_alg».proof.Proof.Gen.ReferenceIdeal.Read
import proofs.«175005_j86182813761997_2_alg».proof.Proof.TileCells
import Idealize.ShloMosaic.Lib.Pipeline.Value
import Idealize.ShloMosaic.Lib.ValueIdx
import Idealize.ShloMosaic.PureOps.Ideal.Laws

noncomputable section

namespace Cert.BlockLinear.Weight

open Idealize.ShloMosaic Idealize.ShloMosaic.ValueIdx Cert.BlockLinear.Tiles
open Cert.ReferenceIdeal (Read.val_main_v17)

/-! ## The kernel's host operations, as terms of the arguments -/

section KernelTerms
open Cert.KernelIdeal Cert.KernelIdeal.Gen

/-- An index vector with negative entries wrapped by 128 (what the lowering of `.at[…]` does to each index array). -/
def wrapped (v : IVec S8192 32) : IVec S8192 32 :=
  select (cmpi .slt v (broadcastInDim S8192 ![] bcast_S_S8192 (constantI S_ 32 0#32)))
    (addi v (broadcastInDim S8192 ![] bcast_S_S8192 (constantI S_ 32 128#32))) v

/-- The kernel's index array: column 0 the wrapped block columns, column 1 the wrapped block rows. -/
def kernelPositions (x3 x4 : IVec S8192 32) : IVec S8192x2 32 :=
  concatenate S8192x2 1 [⟨S8192x1, broadcastInDim S8192x1 ![0] bcast_S8192_S8192x1_0 (wrapped x4)⟩,
    ⟨S8192x1, broadcastInDim S8192x1 ![0] bcast_S8192_S8192x1_0 (wrapped x3)⟩] concatenates_S8192x1_S8192x1_S8192x2_d1

/-- The kernel's tile array [128, 32, 128, 32]: the transposed tiles scattered into zeros. -/
def kernelTiles (x1 : FVec Ideal S8192x32x32 .f32) (x3 x4 : IVec S8192 32) : FVec Ideal S128x32x128x32 .bf16 :=
  Host.scatter scatter_S128x32x128x32_S8192x2_S8192x32x32_12_02_02_1 (fun _ b => b)
    (broadcastInDim S128x32x128x32 ![] bcast_S_S128x32x128x32 (constant (F := Ideal) S_ .bf16 0x0000#16))
    (kernelPositions x3 x4)
    (transpose S8192x32x32 [0, 2, 1] (truncf .bf16 x1 bitsLt_bf16_f32) transposes_S8192x32x32_S8192x32x32_0_2_1)

/-- The kernel's weight matrix [in, out]: its tile array reshaped. -/
def kernelWeight (x1 : FVec Ideal S8192x32x32 .f32) (x3 x4 : IVec S8192 32) : FVec Ideal S4096x4096 .bf16 :=
  shapeCast S4096x4096 (kernelTiles x1 x3 x4) shapeCasts_S128x32x128x32_S4096x4096

end KernelTerms

/-! ## The pieces of the comparison -/

/-- The bf16 zero word is the extended real zero. -/
theorem ofBits_zero_bf16 : Ideal.ofBits .bf16 0x0000#16 = 0 := by simp [Ideal.ofBits, Ideal.ieee]

/-- A two-column index array read in its first column. -/
theorem columns_left (A B : IVec (⟨2, ![8192, 1]⟩ : Shape) 32)
    (h : Shape.Concatenates [(⟨2, ![8192, 1]⟩ : Shape), ⟨2, ![8192, 1]⟩] ⟨2, ![8192, 2]⟩ 1) (n : Fin 8192) :
    concatenate (⟨2, ![8192, 2]⟩ : Shape) 1 [⟨⟨2, ![8192, 1]⟩, A⟩, ⟨⟨2, ![8192, 1]⟩, B⟩] h (ix2 n 0) = A (ix2 n 0) :=
  concatenate_pair_apply_left 1 A B h (ix2 n 0) rfl (ix2 n 0) (fun b => by
    match b with
    | ⟨0, _⟩ => rfl
    | ⟨1, _⟩ => rfl)

/-- A two-column index array read in its second column. -/
theorem columns_right (A B : IVec (⟨2, ![8192, 1]⟩ : Shape) 32)
    (h : Shape.Concatenates [(⟨2, ![8192, 1]⟩ : Shape), ⟨2, ![8192, 1]⟩] ⟨2, ![8192, 2]⟩ 1) (n : Fin 8192) :
    concatenate (⟨2, ![8192, 2]⟩ : Shape) 1 [⟨⟨2, ![8192, 1]⟩, A⟩, ⟨⟨2, ![8192, 1]⟩, B⟩] h (ix2 n 1) = B (ix2 n 0) :=
  concatenate_pair_apply_right 1 A B h (ix2 n 1) rfl rfl (ix2 n 0) (fun b hb => by
    match b with
    | ⟨0, _⟩ => rfl
    | ⟨1, _⟩ => exact absurd rfl hb) rfl

/-- The kernel's updates are the tiles transposed. -/
theorem transposed_tiles (x1 : FVec Ideal Cert.KernelIdeal.S8192x32x32 .f32) (n : Fin 8192) (a b : Fin 32) :
    x1 (ix3 n a b)
      = transpose Cert.KernelIdeal.S8192x32x32 [0, 2, 1] (truncf .bf16 x1 Cert.KernelIdeal.Gen.bitsLt_bf16_f32)
          Cert.KernelIdeal.Gen.transposes_S8192x32x32_S8192x32x32_0_2_1 (ix3 n b a) :=
  (transpose_apply [0, 2, 1] (truncf .bf16 x1 Cert.KernelIdeal.Gen.bitsLt_bf16_f32)
    Cert.KernelIdeal.Gen.transposes_S8192x32x32_S8192x32x32_0_2_1 (ix3 n b a) (ix3 n a b) (fun b' => by
      match b' with
      | ⟨0, _⟩ => rfl
      | ⟨1, _⟩ => rfl
      | ⟨2, _⟩ => rfl)).symm

/-! ## The weight matrices agree -/

/-- Entry by entry, the kernel's [in, out] weight matrix is the matrix the reference contracts against. -/
theorem weight_eq (x1 : FVec Ideal Cert.KernelIdeal.S8192x32x32 .f32) (x3 x4 : IVec Cert.KernelIdeal.S8192 32) :
    kernelWeight x1 x3 x4 = Cert.ReferenceIdeal.Read.val_main_v17 (F := Ideal) x1 x3 x4 := by
  funext kc
  obtain ⟨k, c, rfl⟩ : ∃ (k c : Fin 4096), kc = ix2 k c := ⟨kc 0, kc 1, eq_ix2 kc⟩
  have hk := k.isLt
  have hc := c.isLt
  -- the cell: block row and row inside the tile from the output feature, block column and column from the input feature
  let br : Fin 128 := ⟨c.val / 32, by omega⟩
  let bc : Fin 128 := ⟨k.val / 32, by omega⟩
  let i : Fin 32 := ⟨c.val % 32, by omega⟩
  let jj : Fin 32 := ⟨k.val % 32, by omega⟩
  -- the reference: transpose, reshape, transpose read at (k, c)
  rw [Cert.ReferenceIdeal.Read.val_main_v17_apply, Cert.ReferenceIdeal.Read.val_main_v16_apply,
    Cert.ReferenceIdeal.Read.val_main_v15_apply]
  have eR : Cert.ReferenceIdeal.Read.idx_main_v15 (Cert.ReferenceIdeal.Read.idx_main_v16
      (Cert.ReferenceIdeal.Read.idx_main_v17 (ix2 k c))) = ix4 br bc i jj := funext fun a => Fin.ext (by
    match a with
    | ⟨0, _⟩ => show (c.val * 4096 + k.val) / 131072 = c.val / 32; omega
    | ⟨1, _⟩ => show (c.val * 4096 + k.val) / 32 % 128 = k.val / 32; omega
    | ⟨2, _⟩ => show (c.val * 4096 + k.val) / 4096 % 32 = c.val % 32; omega
    | ⟨3, _⟩ => show (c.val * 4096 + k.val) % 32 = k.val % 32; omega)
  rw [eR]
  -- the kernel: the reshape read at (k, c)
  unfold kernelWeight
  rw [shapeCast_apply (kernelTiles x1 x3 x4) Cert.KernelIdeal.Gen.shapeCasts_S128x32x128x32_S4096x4096 (ix2 k c) (ix4 bc jj br i) (by
    rw [Shape.rowMajor_val_four, Shape.rowMajor_val_two]
    show ((k.val / 32 * 32 + k.val % 32) * 128 + c.val / 32) * 32 + c.val % 32 = k.val * 4096 + c.val
    omega)]
  unfold kernelTiles Cert.ReferenceIdeal.Read.val_main_v14
  refine (tile_cell_eq _ _ _ _ _ _ ?_ ?_ (transposed_tiles x1) br bc i jj ?_).symm
  · intro n
    unfold Cert.ReferenceIdeal.Read.val_main_v13 kernelPositions
    rw [columns_left, columns_right]
    rfl
  · intro n
    unfold Cert.ReferenceIdeal.Read.val_main_v13 kernelPositions
    rw [columns_right, columns_left]
    rfl
  · show Ideal.ofBits .f32 0x00000000#32 = Ideal.ofBits .bf16 0x0000#16
    rw [Ideal.ofBits_zero_f32, ofBits_zero_bf16]

end Cert.BlockLinear.Weight

end
-- ==== Proof.KernelBlock.lean ====
/-
  One grid point of the kernel: the body's payload read at an entry of its [1024, 1024] output block.

  The body loads a [1024, 4096] block of `x`, a [4096, 1024] block of the weight matrix and a [1, 1024] block of the bias,
  multiplies the first two on the matrix unit into a zero accumulator, and adds the bias row broadcast down the rows. At
  the ideal values entry `(p, q)` of what it stores is

      (∑ k, xblk (p, k) · wblk (k, q)) + bblk (0, q).

  The matrix product is read as in the reference's own `dot_general`: the contraction index set has one axis of extent
  4096, so the sum over it is the sum over `k : Fin 4096`, and the operand indices at `(p, q)`, `k` are `(p, k)` and `(k, q)`.
-/
import proofs.«175005_j86182813761997_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.BlockLinear.KernelBlock

open Cert.KernelIdeal Cert.KernelIdeal.Gen Idealize.ShloMosaic Idealize.ShloMosaic.ValueIdx

/-- The dot record of the body's matrix product: [1024, 4096] · [4096, 1024], contracting axis 1 with axis 0. -/
abbrev blockDot := dot_S1024x4096_S4096x1024_S1024x1024_1_0_0_1_n_n

theorem lhs_row (i : S1024x1024.Idx) (q : blockDot.contr.Idx) : (blockDot.lhsIdx i q 0).val = (i 0).val := by
  unfold DotDims.lhsIdx
  rw [dif_neg (show ¬(0 : Fin S1024x4096.rank) ∈ blockDot.lhsBatch by decide),
    dif_pos (show (0 : Fin S1024x4096.rank) ∈ blockDot.lhsNonContracting by decide)]
  rfl
theorem lhs_contracted (i : S1024x1024.Idx) (q : blockDot.contr.Idx) :
    (blockDot.lhsIdx i q 1).val = (q ⟨0, by decide⟩).val :=
  blockDot.lhsIdx_val_of_single rfl i q
theorem rhs_contracted (i : S1024x1024.Idx) (q : blockDot.contr.Idx) :
    (blockDot.rhsIdx i q 0).val = (q ⟨0, by decide⟩).val :=
  blockDot.rhsIdx_val_of_single rfl i q
theorem rhs_col (i : S1024x1024.Idx) (q : blockDot.contr.Idx) : (blockDot.rhsIdx i q 1).val = (i 1).val := by
  unfold DotDims.rhsIdx
  rw [dif_neg (show ¬(1 : Fin S4096x1024.rank) ∈ blockDot.rhsBatch by decide),
    dif_pos (show (1 : Fin S4096x1024.rank) ∈ blockDot.rhsNonContracting by decide)]
  rfl

/-- The matrix unit's product into a zero accumulator, at entry `(p, q)`: the sum over the 4096 contracted positions. -/
theorem product_apply (l : FVec Ideal S1024x4096 .bf16) (r : FVec Ideal S4096x1024 .bf16) (p q : Fin 1024) :
    matmul (F := Ideal) blockDot none l r (constant (F := Ideal) S1024x1024 .f32 0x00000000#32) (ix2 p q)
      = ∑ k : Fin 4096, l (ix2 p k) * r (ix2 k q) := by
  simp only [matmul]
  rw [Ideal.matmul_constant_zero_apply, ← Equiv.sum_comp (ValueIdx.contrEquiv1 blockDot 4096 rfl rfl).symm]
  refine Finset.sum_congr rfl fun k _ => ?_
  have hk := ValueIdx.contrEquiv1_symm_val blockDot 4096 rfl rfl k
  have el : blockDot.lhsIdx (ix2 p q) ((ValueIdx.contrEquiv1 blockDot 4096 rfl rfl).symm k) = ix2 p k :=
    funext fun a => Fin.ext (by
      match a with
      | ⟨0, _⟩ => exact lhs_row _ _
      | ⟨1, _⟩ => exact (lhs_contracted _ _).trans hk)
  have er : blockDot.rhsIdx (ix2 p q) ((ValueIdx.contrEquiv1 blockDot 4096 rfl rfl).symm k) = ix2 k q :=
    funext fun a => Fin.ext (by
      match a with
      | ⟨0, _⟩ => exact (rhs_contracted _ _).trans hk
      | ⟨1, _⟩ => exact rhs_col _ _)
  rw [el, er]

/-- The bias row broadcast down the 1024 rows, at entry `(p, q)`: the row's entry `q`. -/
theorem bias_rows_apply (b : FVec Ideal S1x1024 .f32) (p q : Fin 1024) :
    broadcastTo S1024x1024 b broadcasts_S1x1024_S1024x1024 (ix2 p q) = b (ix2 0 q) :=
  broadcastTo_apply b broadcasts_S1x1024_S1024x1024 (ix2 p q) (ix2 0 q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- What the body stores, at entry `(p, q)` of the output block. -/
theorem payload_apply (xblk : Vec Ideal S1024x4096 .bf16) (wblk : Vec Ideal S4096x1024 .bf16) (bblk : Vec Ideal S1x1024 .f32)
    (p q : Fin 1024) :
    k0_pay1 (F := Ideal) xblk wblk bblk (ix2 p q)
      = (∑ k : Fin 4096, xblk (ix2 p k) * wblk (ix2 k q)) + bblk (ix2 0 q) := by
  unfold k0_pay1
  show matmul (F := Ideal) blockDot none (shapeCast S1024x4096 xblk shapeCasts_S1024x4096_S1024x4096)
        (shapeCast S4096x1024 wblk shapeCasts_S4096x1024_S4096x1024) (constant (F := Ideal) S1024x1024 .f32 0x00000000#32) (ix2 p q)
      + broadcastTo S1024x1024 (shapeCast S1x1024 bblk shapeCasts_S1x1024_S1x1024) broadcasts_S1x1024_S1024x1024 (ix2 p q) = _
  rw [shapeCast_self, shapeCast_self, shapeCast_self, product_apply, bias_rows_apply]

end Cert.BlockLinear.KernelBlock

end
-- ==== Proof.KernelStaged.lean ====
/-
  What the pallas_call finds in its three staged arrays: the results of the host operations that come before it.

  `x` is staged after a change of format (the identity at the ideal values); the bias after a reshape to a [1, 4096] row;
  the weight matrix is the tile array (the transposed tiles scattered into zeros at the wrapped positions) reshaped to
  [4096 in, 4096 out].
-/
import proofs.«175005_j86182813761997_2_alg».proof.Proof.Gen.KernelIdeal.Frame
import proofs.«175005_j86182813761997_2_alg».proof.Proof.WeightEq
import Idealize.ShloMosaic.Lib.Pipeline.Value
import Idealize.ShloMosaic.Lib.StableHlo.Run
import Idealize.ShloMosaic.Lib.ValueIdx

noncomputable section

namespace Cert.BlockLinear.KernelStaged

open Cert.KernelIdeal Cert.KernelIdeal.Gen Idealize.ShloMosaic Idealize.ShloMosaic.TcCoe Idealize.SL.Sem
open Idealize.ShloMosaic.ValueIdx Idealize.ShloMosaic.StableHlo
open Cert.BlockLinear.Weight

variable (m : (ℓ : Loc nD τ sig) → Buf (Elt Ideal) ℓ)

/-- The first staged array is `x`: its change of format is the identity at the ideal values. -/
theorem staged_x (c : Dev nD) :
    (V m c main_v18 : S8192x4096.Idx → EReal) = m ((c : Thread nD τ).loc main_arg0) := by
  dsimp only [Gen.V, Gen.hostOps0]; after_results; rfl

/-- The third staged array is the bias as a [1, 4096] row. -/
theorem staged_b (c : Dev nD) :
    (V m c main_v19 : S1x4096.Idx → EReal)
      = shapeCast S1x4096 (m ((c : Thread nD τ).loc main_arg2)) shapeCasts_S4096_S1x4096 := by
  dsimp only [Gen.V, Gen.hostOps0]; after_results; rfl

set_option maxHeartbeats 2000000 in
/-- The second staged array is the weight matrix built from the tiles (the host operations' results read in one pass:
    twenty-three operations lie between the arguments and this array). -/
theorem staged_w (c : Dev nD) :
    (V m c main_v17 : S4096x4096.Idx → EReal)
      = kernelWeight (m ((c : Thread nD τ).loc main_arg1)) (m ((c : Thread nD τ).loc main_arg3))
          (m ((c : Thread nD τ).loc main_arg4)) := by
  unfold kernelWeight kernelTiles kernelPositions wrapped
  dsimp only [Gen.V, Gen.hostOps0]
  after_results_simp <;> rfl

/-- The bias row read at `(z, q)` (its one row) is the bias at `q`. -/
theorem bias_row_apply (b : FVec Ideal S4096 .f32) (z : Fin 1) (q : Fin 4096) :
    shapeCast S1x4096 b shapeCasts_S4096_S1x4096 (ix2 z q) = b (ix1 q) :=
  shapeCast_apply b shapeCasts_S4096_S1x4096 (ix2 z q) (ix1 q) (by
    rw [Shape.rowMajor_val_one, Shape.rowMajor_val_two]
    show q.val = z.val * 4096 + q.val
    have := z.isLt
    omega)

end Cert.BlockLinear.KernelStaged

end
-- ==== Proof.KernelPoint.lean ====
/-
  One grid point of the kernel against the whole-array function, and the grid's index maps.

  If the three loaded blocks are, entry by entry, the rows of `x`, the columns of the weight matrix and the bias entries that
  an array index `i` asks for, then the body's payload at the block entry `y` is `affine x W b` at `i`. The index maps are
  decided once over the 32 grid points: `x`'s block follows the output's block row and spans all columns, the weight's and
  the bias's follow the output's block column and span all rows, and the output's block indices fill 8 × 4.
-/
import proofs.«175005_j86182813761997_2_alg».proof.Proof.Gen.KernelIdeal.Points
import proofs.«175005_j86182813761997_2_alg».proof.Proof.KernelBlock
import proofs.«175005_j86182813761997_2_alg».proof.Proof.Spec
import Idealize.ShloMosaic.Lib.ValueIdx

noncomputable section

open scoped BigOperators

namespace Cert.BlockLinear.KernelPoint

open Cert.KernelIdeal Cert.KernelIdeal.Gen Idealize.ShloMosaic Idealize.ShloMosaic.ValueIdx
open Cert.BlockLinear Cert.BlockLinear.KernelBlock

/-- The body's payload at an entry `y` of the block, given that the loaded blocks are the rows, columns and bias entries of
    `x`, `W`, `b` that the array index `i` of that entry asks for: `affine x W b` at `i`. -/
theorem point_value (X : S8192x4096.Idx → EReal) (W : S4096x4096.Idx → EReal) (b : S4096.Idx → EReal)
    (xblk : Vec Ideal S1024x4096 .bf16) (wblk : Vec Ideal S4096x1024 .bf16) (bblk : Vec Ideal S1x1024 .f32)
    (y : S1024x1024.Idx) (i : S8192x4096.Idx)
    (hx : ∀ k : Fin 4096, xblk (ix2 (y 0) k) = X (ix2 (i 0) k))
    (hw : ∀ k : Fin 4096, wblk (ix2 k (y 1)) = W (ix2 k (i 1)))
    (hb : bblk (ix2 0 (y 1)) = b (ix1 (i 1))) :
    k0_pay1 (F := Ideal) xblk wblk bblk y = affine X W b i := by
  have hy : k0_pay1 (F := Ideal) xblk wblk bblk y
      = (∑ k : Fin 4096, xblk (ix2 (y 0) k) * wblk (ix2 k (y 1))) + bblk (ix2 0 (y 1)) :=
    (congrArg (k0_pay1 (F := Ideal) xblk wblk bblk) (eq_ix2 y)).trans (payload_apply xblk wblk bblk (y 0) (y 1))
  rw [hy]
  unfold affine
  rw [hb]
  exact congrArg (· + b (ix1 (i 1))) (Finset.sum_congr rfl fun k _ => by rw [hx k, hw k])

/-- The printed index maps over the grid. -/
theorem index_maps : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 3 :=
  (by decide +kernel : ∀ t : Fin grid0.N, _)

/-- Every block of the 8 × 4 tiling is some point's. -/
theorem index_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

end Cert.BlockLinear.KernelPoint

end
-- ==== Proof.KernelArray.lean ====
/-
  The kernel's result array, whole.

  The pallas_call runs on an 8 × 4 grid. Point `(gi, gj)` stages rows `1024·gi … 1024·gi + 1023` of `x` (all 4096 columns),
  columns `1024·gj … 1024·gj + 1023` of the weight matrix (all 4096 rows) and the same columns of the bias row, and writes
  back the [1024, 1024] block `(gi, gj)` of the result. A block's array coordinate on an axis is always
  block index × block extent + the coordinate inside the block.

  So entry `y = (p, q)` of what point `t` writes back is `affine x W b` at the array index `(1024·gi + p, 1024·gj + q)`, where
  `x`, `W`, `b` are what the host operations before the region leave in the three staged arrays. That statement is proved
  for ARBITRARY arrays `X`, `W`, `B` found there (the weight matrix is a scatter of eight million updates: it is only ever
  named, never computed with), and then read at the three arrays the host operations really leave. The 32 blocks tile the
  [8192, 4096] result (the block covering row `r`, column `c` is `(r / 1024, c / 1024)`), so the array after the run is
  `affine x W b` everywhere.
-/
import proofs.«175005_j86182813761997_2_alg».proof.Proof.Gen.KernelIdeal.Value
import proofs.«175005_j86182813761997_2_alg».proof.Proof.KernelStaged
import proofs.«175005_j86182813761997_2_alg».proof.Proof.KernelPoint
import proofs.«175005_j86182813761997_2_alg».proof.Proof.WeightEq
import proofs.«175005_j86182813761997_2_alg».proof.Proof.Spec
import Idealize.ShloMosaic.Lib.Pipeline.Value
import Idealize.ShloMosaic.Lib.ValueIdx

set_option maxRecDepth 16384

noncomputable section

namespace Cert.BlockLinear.KernelArray

open Cert.KernelIdeal Cert.KernelIdeal.Gen Idealize.ShloMosaic Idealize.ShloMosaic.TcCoe Idealize.SL.Sem
open Idealize.ShloMosaic.ValueIdx
open Idealize.ShloMosaic.Pipeline (Dat)
open Cert.BlockLinear Cert.BlockLinear.Weight Cert.BlockLinear.KernelStaged Cert.BlockLinear.KernelPoint

variable (m : (ℓ : Loc nD τ sig) → Buf (Elt Ideal) ℓ) (ρ : Dev nD → PrngReg)

/-- The array the kernel ends with, as a function of the arguments: the affine map of `x`, the weight matrix built from
    the tiles, and the bias. -/
def result (c : Dev nD) : S8192x4096.Idx → EReal :=
  affine (m ((c : Thread nD τ).loc main_arg0))
    (kernelWeight (m ((c : Thread nD τ).loc main_arg1)) (m ((c : Thread nD τ).loc main_arg3))
      (m ((c : Thread nD τ).loc main_arg4)))
    (m ((c : Thread nD τ).loc main_arg2))

theorem zero_offsets : (![0, 0] : Fin 2 → Nat) = fun _ => 0 := funext fun a => by fin_cases a <;> rfl

/-- WHAT POINT `t` WRITES BACK, with the three staged arrays NAMED: if the region finds `X`, `W` and the one-row array `B`
    (whose row is `b`) in them, point `t` writes back block `t` of `affine X W b`. The arrays are variables here: nothing in
    this proof looks inside them. -/
theorem flushed_of_staged (c : Dev nD) (t : Fin cfg0.N)
    (X : S8192x4096.Idx → EReal) (W : S4096x4096.Idx → EReal) (B : S1x4096.Idx → EReal) (b : S4096.Idx → EReal)
    (hX : V m c (Pipeline.arrRef spec0 (0 : Fin cfg0.W)) = X)
    (hW : V m c (Pipeline.arrRef spec0 (1 : Fin cfg0.W)) = W)
    (hB : V m c (Pipeline.arrRef spec0 (2 : Fin cfg0.W)) = B)
    (hb : ∀ (z : Fin 1) (q : Fin 4096), B (ix2 z q) = b (ix1 q)) :
    (dats m 0 c).flushed 3 t = ((cfg0.win 3).blk t).view.read (Elt Ideal) (affine X W b) := by
  -- each input block is the block read of its array
  have bx : iblk m c 0 t = ((cfg0.win 0).blk t).view.read (Elt Ideal) X := by unfold iblk; rw [hX]
  have bw : iblk m c 1 t = ((cfg0.win 1).blk t).view.read (Elt Ideal) W := by unfold iblk; rw [hW]
  have bb : iblk m c 2 t = ((cfg0.win 2).blk t).view.read (Elt Ideal) B := by unfold iblk; rw [hB]
  rw [Value.flushed3, bx, bw, bb]
  unfold out0_3
  rw [View.canon_unit_zero zero_offsets]
  simp only [View.ld_unit_zero (S := S1024x4096) zero_offsets, View.ld_unit_zero (S := S4096x1024) zero_offsets,
    View.ld_unit_zero (S := S1x1024) zero_offsets]
  obtain ⟨e0, e1, e2, e3, e4, e5, e6, e7⟩ := index_maps t
  funext y
  have hy0 : (y 0).val < 1024 := (y 0).isLt
  have hy1 : (y 1).val < 1024 := (y 1).isLt
  show k0_pay1 (F := Ideal) (((cfg0.win 0).blk t).view.read (Elt Ideal) X) (((cfg0.win 1).blk t).view.read (Elt Ideal) W)
      (((cfg0.win 2).blk t).view.read (Elt Ideal) B) y
    = affine X W b (((cfg0.win 3).blk t).view.emb y)
  refine point_value X W b (((cfg0.win 0).blk t).view.read (Elt Ideal) X) (((cfg0.win 1).blk t).view.read (Elt Ideal) W)
    (((cfg0.win 2).blk t).view.read (Elt Ideal) B) y (((cfg0.win 3).blk t).view.emb y) ?_ ?_ ?_
  · intro k
    show X (((cfg0.win 0).blk t).view.emb (ix2 (y 0) k)) = _
    exact congrArg X (funext fun a => Fin.ext (by
      match a with
      | ⟨0, _⟩ =>
        show win0_0.index t (0 : Fin 2) * 1024 + 1 * (y 0).val = win0_3.index t (0 : Fin 2) * 1024 + 1 * (y 0).val
        omega
      | ⟨1, _⟩ =>
        show win0_0.index t (1 : Fin 2) * 4096 + 1 * k.val = k.val
        omega))
  · intro k
    show W (((cfg0.win 1).blk t).view.emb (ix2 k (y 1))) = _
    exact congrArg W (funext fun a => Fin.ext (by
      match a with
      | ⟨0, _⟩ =>
        show win0_1.index t (0 : Fin 2) * 4096 + 1 * k.val = k.val
        omega
      | ⟨1, _⟩ =>
        show win0_1.index t (1 : Fin 2) * 1024 + 1 * (y 1).val = win0_3.index t (1 : Fin 2) * 1024 + 1 * (y 1).val
        omega))
  · show B (((cfg0.win 2).blk t).view.emb (ix2 0 (y 1))) = _
    have hq : win0_2.index t (1 : Fin 2) * 1024 + 1 * (y 1).val < 4096 := by omega
    have hcoord : ((cfg0.win 2).blk t).view.emb (ix2 0 (y 1))
        = ix2 (0 : Fin 1) (⟨win0_2.index t (1 : Fin 2) * 1024 + 1 * (y 1).val, hq⟩ : Fin 4096) :=
      funext fun a => Fin.ext (by
        match a with
        | ⟨0, _⟩ =>
          show win0_2.index t (0 : Fin 2) * 1 + 1 * 0 = 0
          omega
        | ⟨1, _⟩ => rfl)
    rw [hcoord, hb]
    exact congrArg b (funext fun a => Fin.ext (by
      match a with
      | ⟨0, _⟩ =>
        show win0_2.index t (1 : Fin 2) * 1024 + 1 * (y 1).val = win0_3.index t (1 : Fin 2) * 1024 + 1 * (y 1).val
        omega))

/-- WHAT POINT `t` WRITES BACK is block `t` of `result`. -/
theorem flushed_eq (c : Dev nD) (t : Fin cfg0.N) :
    (dats m 0 c).flushed 3 t = ((cfg0.win 3).blk t).view.read (Elt Ideal) (result m c) :=
  flushed_of_staged m c t (m ((c : Thread nD τ).loc main_arg0))
    (kernelWeight (m ((c : Thread nD τ).loc main_arg1)) (m ((c : Thread nD τ).loc main_arg3))
      (m ((c : Thread nD τ).loc main_arg4)))
    (shapeCast S1x4096 (m ((c : Thread nD τ).loc main_arg2)) shapeCasts_S4096_S1x4096)
    (m ((c : Thread nD τ).loc main_arg2))
    (staged_x m c) (staged_w m c) (staged_b m c) (fun z q => bias_row_apply _ z q)

/-! ## The blocks tile the result -/

/-- An index of the array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v20).slice (win0_3.rect t)).set ↔ _
  rw [View.set_slice_whole, Rect.mem_set_unit]
  exact Iff.rfl

/-- Every index of the result is in the block of the point at `(row / 1024, column / 1024)`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE ARRAY after the run is `result`. -/
theorem final (c : Dev nD) : (dats m 0 c).arrAt 3 cfg0.N = result m c :=
  (dats m 0 c).arrAt_eq_of_cover 3 (result m c) (fun t _ => flushed_eq m c t) cover

/-! ## The run, read -/

/-- Every weakly fair execution of the kernel's program ends with the result array at `result` and the arguments
    unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.BlockLinear.KernelArray

end
-- ==== Proof.ReferenceValue.lean ====
/-
  The reference's result is the affine map of its own weight matrix.

  Its last three stages read at `(r, c)`: the `dot_general` of `x` with the transposed weight is `∑ k, x (r, k) · Wt (k, c)`
  (`Wt` the stage it contracts against), the bias is broadcast first to a [1, 4096] row and then down the 8192 rows, so it
  contributes `b c`, and the sum of the two is the result.
-/
import proofs.«175005_j86182813761997_2_alg».proof.Proof.Gen.ReferenceIdeal.Read
import proofs.«175005_j86182813761997_2_alg».proof.Proof.Spec

noncomputable section

open scoped BigOperators

namespace Cert.BlockLinear.Reference

open Cert.ReferenceIdeal Idealize.ShloMosaic Idealize.ShloMosaic.ValueIdx Cert.BlockLinear

/-- The reference's result array, as a function of the arguments: `affine` of `x`, the matrix its contraction reads, and
    the bias. -/
theorem result_eq (x0 : FVec Ideal S8192x4096 .f32) (x1 : FVec Ideal S8192x32x32 .f32) (x2 : FVec Ideal S4096 .f32)
    (x3 x4 : IVec S8192 32) :
    Read.val_main_v21 (F := Ideal) x0 x1 x2 x3 x4 = affine x0 (Read.val_main_v17 (F := Ideal) x1 x3 x4) x2 := by
  funext rc
  obtain ⟨r, c, rfl⟩ : ∃ (r : Fin 8192) (c : Fin 4096), rc = ix2 r c := ⟨rc 0, rc 1, eq_ix2 rc⟩
  have el : ∀ k : Fin 4096, Read.lidx_main_v18 (ix2 r c) k = ix2 r k := fun k => funext fun a => by
    match a with
    | ⟨0, _⟩ => rfl
    | ⟨1, _⟩ => rfl
  have er : ∀ k : Fin 4096, Read.ridx_main_v18 (ix2 r c) k = ix2 k c := fun k => funext fun a => by
    match a with
    | ⟨0, _⟩ => rfl
    | ⟨1, _⟩ => rfl
  have eb : Read.idx_main_v19 (Read.idx_main_v20 (ix2 r c)) = ix1 c := funext fun a => by
    match a with
    | ⟨0, _⟩ => rfl
  rw [Read.val_main_v21_apply, Read.val_main_v18_apply, Read.val_main_v20_apply, Read.val_main_v19_apply, affine_apply]
  simp only [el, er, eb]
  rfl

end Cert.BlockLinear.Reference

end
-- ==== Proof.lean ====
/-
  A block-sparse linear layer: `x · Wᵀ + bias` for `x : [8192, 4096]`, where the weight `W : [4096 out, 4096 in]` is given as
  8192 tiles of 32 × 32 (`weight_data`) with a block row and a block column each (`block_rows`, `block_cols`), the rest of `W`
  zero.

  The reference scatters the tiles into a [128, 128, 32, 32] array of zeros, lays it out as `W` (transpose, reshape),
  transposes, and takes one `dot_general` with `x` plus the broadcast bias. The kernel scatters the TRANSPOSED tiles into a
  [128, 32, 128, 32] array of zeros — with the two index columns in the other order — so that one reshape gives the
  matrix `Wᵀ : [in, out]` directly, and computes `x · Wᵀ + bias` in 32 blocks of 1024 × 1024 on an 8 × 4 grid, each block one
  matrix-unit product over the whole contraction plus the bias row.

  At the ideal values (extended reals, exact operations, changes of float format the identity) the two are one function of
  the arguments, entry by entry:
    * both scatters overwrite, drop an update exactly when its block row or block column (after the wrap of negative
      values by 128) is outside 0…127, and where several tiles name one block the row-major-last one wins in both, which
      is the tile with the largest number in both; so the cell `(br, bc, i, j)` of the reference's array and the cell
      `(bc, j, br, i)` of the kernel's hold the same value, and after the layout operations the two [in, out] matrices agree;
    * entry `(r, c)` of either result is then `(∑ k, x (r, k) · Wᵀ (k, c)) + bias c`, the same sum of the same terms.
  No step uses a law that fails at infinities (no distributivity, no cancellation), so the finiteness precondition is not
  opened. The ideal pass rewrote nothing, so the idealized kernel is the kernel's own text and `preserves` is trivial.

  The frames are those of the generated frame modules; the kernel's run is read block by block from its generated value
  leg and the reference's from its generated run, one operation at a time.
-/
import proofs.«175005_j86182813761997_2_alg».proof.Defs
import proofs.«175005_j86182813761997_2_alg».proof.Proof.Gen.Kernel
import proofs.«175005_j86182813761997_2_alg».proof.Proof.Gen.Kernel.Skeleton
import proofs.«175005_j86182813761997_2_alg».proof.Proof.Gen.Kernel.Launch
import proofs.«175005_j86182813761997_2_alg».proof.Proof.Gen.Kernel.Points
import proofs.«175005_j86182813761997_2_alg».proof.Proof.Gen.Kernel.Frame
import proofs.«175005_j86182813761997_2_alg».proof.Proof.Gen.KernelIdeal
import proofs.«175005_j86182813761997_2_alg».proof.Proof.Gen.KernelIdeal.Skeleton
import proofs.«175005_j86182813761997_2_alg».proof.Proof.Gen.KernelIdeal.Launch
import proofs.«175005_j86182813761997_2_alg».proof.Proof.Gen.KernelIdeal.Points
import proofs.«175005_j86182813761997_2_alg».proof.Proof.Gen.KernelIdeal.Frame
import proofs.«175005_j86182813761997_2_alg».proof.Proof.Gen.ReferenceIdeal
import proofs.«175005_j86182813761997_2_alg».proof.Proof.Gen.Pre_finite_inputs
import proofs.«175005_j86182813761997_2_alg».proof.Proof.Gen.KernelIdeal.Value
import proofs.«175005_j86182813761997_2_alg».proof.Proof.Gen.ReferenceIdeal.Run
import proofs.«175005_j86182813761997_2_alg».proof.Proof.Gen.ReferenceIdeal.Read
import proofs.«175005_j86182813761997_2_alg».proof.Proof.LibScatterLast
import proofs.«175005_j86182813761997_2_alg».proof.Proof.Spec
import proofs.«175005_j86182813761997_2_alg».proof.Proof.TileCells
import proofs.«175005_j86182813761997_2_alg».proof.Proof.WeightEq
import proofs.«175005_j86182813761997_2_alg».proof.Proof.KernelBlock
import proofs.«175005_j86182813761997_2_alg».proof.Proof.KernelArray
import proofs.«175005_j86182813761997_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments the kernel ends with `affine x Wᵀ_kernel bias` and the reference with
    `affine x Wᵀ_reference bias` of the same arguments, and the two weight matrices are equal. -/
theorem algebraic : Cert.algebraic_KernelIdeal_ReferenceIdeal := by
  intro m ρ m' ρ' _ hagree
  refine ⟨Cert.BlockLinear.KernelArray.result m, Cert.BlockLinear.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.BlockLinear.Reference.result_eq,
    (hagree c).1, (hagree c).2.1, (hagree c).2.2.1, (hagree c).2.2.2.1, (hagree c).2.2.2.2]
  unfold Cert.BlockLinear.KernelArray.result
  show Cert.BlockLinear.affine _ (Cert.ReferenceIdeal.Read.val_main_v17 (F := Ideal) _ _ _) _
    = Cert.BlockLinear.affine _ (Cert.BlockLinear.Weight.kernelWeight _ _ _) _
  rw [Cert.BlockLinear.Weight.weight_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
